-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x128 : Shape := ⟨4, ![2, 16, 2048, 128]⟩
abbrev S2x1x2048x2048 : Shape := ⟨4, ![2, 1, 2048, 2048]⟩
abbrev S_ : Shape := ⟨0, ![]⟩

class Facts : Prop where
  bcast_S_S2x16x2048x128 : S_.BroadcastsInDim S2x16x2048x128 (![] : Fin 0 → Fin S2x16x2048x128.rank)
  reducesTo_S2x16x2048x128_S_d0_1_2_3 : S2x16x2048x128.ReducesTo [0, 1, 2, 3] S_
  h_S_ : 0 < S_.numel

variable [Facts]

def fn {F : FTy → Type} [FloatOps F] (main_arg0 : FVec F S2x16x2048x128 .f32) (main_arg1 : FVec F S2x16x2048x128 .f32) (main_arg2 : FVec F S2x16x2048x128 .f32) (main_arg3 : IVec S2x1x2048x2048 32) : IVec S_ 1 :=
  let main_v0 : FVec F S2x16x2048x128 .f32 := Host.absf main_arg0
  let main_cst : FVec F S_ .f32 := constant S_ .f32 0x7F800000#32
  let main_v1 : FVec F S2x16x2048x128 .f32 := broadcastInDim S2x16x2048x128 ![] bcast_S_S2x16x2048x128 main_cst
  let main_v2 : IVec S2x16x2048x128 1 := cmpf .olt main_v0 main_v1
  let main_c : IVec S_ 1 := constantI S_ 1 1#1
  let main_v3 : IVec S_ 1 := (fun x v => Host.reduce IntOp.andi x v reducesTo_S2x16x2048x128_S_d0_1_2_3 h_S_) main_v2 main_c
  let main_v4 : FVec F S2x16x2048x128 .f32 := Host.absf main_arg1
  let main_cst_0 : FVec F S_ .f32 := constant S_ .f32 0x7F800000#32
  let main_v5 : FVec F S2x16x2048x128 .f32 := broadcastInDim S2x16x2048x128 ![] bcast_S_S2x16x2048x128 main_cst_0
  let main_v6 : IVec S2x16x2048x128 1 := cmpf .olt main_v4 main_v5
  let main_c_1 : IVec S_ 1 := constantI S_ 1 1#1
  let main_v7 : IVec S_ 1 := (fun x v => Host.reduce IntOp.andi x v reducesTo_S2x16x2048x128_S_d0_1_2_3 h_S_) main_v6 main_c_1
  let main_v8 : IVec S_ 1 := andi main_v3 main_v7
  let main_v9 : FVec F S2x16x2048x128 .f32 := Host.absf main_arg2
  let main_cst_2 : FVec F S_ .f32 := constant S_ .f32 0x7F800000#32
  let main_v10 : FVec F S2x16x2048x128 .f32 := broadcastInDim S2x16x2048x128 ![] bcast_S_S2x16x2048x128 main_cst_2
  let main_v11 : IVec S2x16x2048x128 1 := cmpf .olt main_v9 main_v10
  let main_c_3 : IVec S_ 1 := constantI S_ 1 1#1
  let main_v12 : IVec S_ 1 := (fun x v => Host.reduce IntOp.andi x v reducesTo_S2x16x2048x128_S_d0_1_2_3 h_S_) main_v11 main_c_3
  let main_v13 : IVec S_ 1 := andi main_v8 main_v12
  main_v13
-- ==== Kernel.lean ====
abbrev S2x16x2048x128 : Shape := ⟨4, ![2, 16, 2048, 128]⟩
abbrev S2x1x2048x2048 : Shape := ⟨4, ![2, 1, 2048, 2048]⟩
abbrev S2x16x2048x2048 : Shape := ⟨4, ![2, 16, 2048, 2048]⟩
abbrev S1x1x1024x128 : Shape := ⟨4, ![1, 1, 1024, 128]⟩
abbrev S1x1x2048x128 : Shape := ⟨4, ![1, 1, 2048, 128]⟩
abbrev S1x1x1024x2048 : Shape := ⟨4, ![1, 1, 1024, 2048]⟩
abbrev S1024x128 : Shape := ⟨2, ![1024, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x1x2048x2048, .i32⟩
  | .hbm, ⟨4, _⟩ => ⟨S2x16x2048x128, .f32⟩
  | .hbm, ⟨5, _⟩ => ⟨S2x16x2048x2048, .f32⟩
  | .local _ .vmem, ⟨0, _⟩ => ⟨S1x1x1024x128, .f32⟩
  | .local _ .vmem, ⟨1, _⟩ => ⟨S1x1x1024x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S1x1x1024x2048, .i32⟩
  | .local _ .vmem, ⟨7, _⟩ => ⟨S1x1x1024x2048, .i32⟩
  | .local _ .vmem, ⟨8, _⟩ => ⟨S1x1x1024x128, .f32⟩
  | .local _ .vmem, ⟨9, _⟩ => ⟨S1x1x1024x128, .f32⟩
  | .local _ .vmem, ⟨10, _⟩ => ⟨S1x1x1024x2048, .f32⟩
  | .local _ .vmem, ⟨11, _⟩ => ⟨S1x1x1024x2048, .f32⟩
  | _, _ => ⟨S2x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, arg0.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, arg0.toNat, c0_i32.toNat]

abbrev stage0_0 : Fin 2 → Memref sig .tc .vmem S1x1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x1024x128_S1x1x1024x128_0_0_0_0 : ∀ a, (![0, 0, 0, 0] : Fin 4 → Nat) a + S1x1x1024x128.size a ≤ S1x1x1024x128.size a
  h_S1x1x1024x128 : 0 < S1x1x1024x128.numel
  shapeCasts_S1x1x1024x128_S1024x128 : S1x1x1024x128.ShapeCasts S1024x128
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  inb_S1x1x1024x2048_S1x1x1024x2048_0_0_0_0 : ∀ a, (![0, 0, 0, 0] : Fin 4 → Nat) a + S1x1x1024x2048.size a ≤ S1x1x1024x2048.size a
  h_S1x1x1024x2048 : 0 < S1x1x1024x2048.numel
  shapeCasts_S1x1x1024x2048_S1024x2048 : S1x1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  shapeCasts_S1024x2048_S1x1x1024x2048 : S1024x2048.ShapeCasts S1x1x1024x2048
  shapeCasts_S1024x128_S1x1x1024x128 : S1024x128.ShapeCasts S1x1x1024x128
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x128.size a ≤ S2x16x2048x128.size a
  hwx0_0 : ∀ i : grid0.Coords, EltTy.bits .f32 = 32 ∨ (Rect.block (s := S2x16x2048x128) S1x1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x128.size a ≤ S2x16x2048x128.size a
  hwx0_1 : ∀ i : grid0.Coords, EltTy.bits .f32 = 32 ∨ (Rect.block (s := S2x16x2048x128) S1x1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x128.size a ≤ S2x16x2048x128.size a
  hwx0_2 : ∀ i : grid0.Coords, EltTy.bits .f32 = 32 ∨ (Rect.block (s := S2x16x2048x128) S1x1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x2048.size a ≤ S2x1x2048x2048.size a
  hwx0_3 : ∀ i : grid0.Coords, EltTy.bits .i32 = 32 ∨ (Rect.block (s := S2x1x2048x2048) S1x1x1024x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x128.size a ≤ S2x16x2048x128.size a
  hwx0_4 : ∀ i : grid0.Coords, EltTy.bits .f32 = 32 ∨ (Rect.block (s := S2x16x2048x128) S1x1x1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x2048.size a ≤ S2x16x2048x2048.size a
  hwx0_5 : ∀ i : grid0.Coords, EltTy.bits .f32 = 32 ∨ (Rect.block (s := S2x16x2048x2048) S1x1x1024x2048.size (cc0_transform_5 i) (hinb0_5 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1x1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x128 : Shape := ⟨4, ![2, 16, 2048, 128]⟩
abbrev S2x1x2048x2048 : Shape := ⟨4, ![2, 1, 2048, 2048]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S2x16x2048x128, .f32⟩
  | .hbm, ⟨1, _⟩ => ⟨S2x16x2048x128, .f32⟩
  | .hbm, ⟨2, _⟩ => ⟨S2x16x2048x128, .f32⟩
  | .hbm, ⟨3, _⟩ => ⟨S2x1x2048x2048, .i32⟩
  | .hbm, ⟨4, _⟩ => ⟨S_, .f32⟩
  | .hbm, ⟨5, _⟩ => ⟨S2x16x2048x128, .f32⟩
  | .hbm, ⟨6, _⟩ => ⟨S2x16x2048x128, .f32⟩
  | .hbm, ⟨7, _⟩ => ⟨S2x16x2048x2048, .f32⟩
  | .hbm, ⟨8, _⟩ => ⟨S2x1x2048x2048, .f32⟩
  | .hbm, ⟨9, _⟩ => ⟨S_, .i32⟩
  | .hbm, ⟨10, _⟩ => ⟨S2x1x2048x2048, .i32⟩
  | .hbm, ⟨11, _⟩ => ⟨S2x1x2048x2048, .i1⟩
  | .hbm, ⟨12, _⟩ => ⟨S2x1x2048x2048, .i1⟩
  | .hbm, ⟨13, _⟩ => ⟨S_, .f32⟩
  | .hbm, ⟨14, _⟩ => ⟨S2x16x2048x2048, .i1⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S2x16x2048x128, .f32⟩
  | _, _ => ⟨S2x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S2x16x2048x128 : S_.BroadcastsInDim S2x16x2048x128 (![] : Fin 0 → Fin S2x16x2048x128.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]

variable [Facts₀]

def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf

class Facts : Prop extends Facts₀ where

variable [Facts]
-- ==== Proof.AttnSpec.lean ====
/-
  Masked-softmax attention as ONE function of the argument arrays, index by index, over the extended reals.

  For a batch b, a head h and a query row s, the score against key row t is the dot product over the 128 features of
  the scaled query with the key,  score(b,h,s,t) = ∑ d, (q(b,h,s,d) · c) · k(b,h,t,d),  where c = 1048576/11863283 is
  the exact reciprocal of the divisor 11863283/1048576.  Where the mask word at (b,0,s,t) is not zero the score is
  replaced by a small constant; the row is then normalised by the softmax taken at its maximum,
  exp(f t − max f) / ∑ u, exp(f u − max f),  and multiplied by the mask word read as a signed integer.  The second
  result contracts these weights with the values:  out(b,h,s,d) = ∑ t, attn(b,h,s,t) · v(b,h,t,d).
-/
import Idealize.ShloMosaic.Lib.ValueIdx
import Idealize.ShloMosaic.PureOps.Ideal.Laws

noncomputable section

namespace Cert.Attn

open Idealize.ShloMosaic Idealize.ShloMosaic.ValueIdx

/-- The factor the scores are scaled by: the reciprocal of 11863283/1048576. -/
def scale : EReal := ((1048576 / 11863283 : ℝ) : EReal)

/-- The divisor's binary32 word denotes the rational 11863283/1048576 (= 0xB504F3 · 2⁻²⁰). -/
theorem ofBits_divisor : Ideal.ofBits .f32 0x413504F3#32 = ((11863283 / 1048576 : ℝ) : EReal) := by
  simp [Ideal.ofBits, Ideal.ieee, -EReal.coe_mul]; norm_num

/-- Dividing by that divisor is multiplying by `scale`, on every extended real. -/
theorem div_divisor (x : EReal) : Ideal.div x (Ideal.ofBits .f32 0x413504F3#32) = x * scale := by
  rw [ofBits_divisor, Ideal.div_coe (by norm_num : (11863283 / 1048576 : ℝ) ≠ 0)]
  unfold scale
  norm_num

/-- The fill: where the mask word is not zero the score is replaced by the constant. -/
def fill (w : BitVec 32) (s : EReal) : EReal :=
  Scalar.select (IntOp.cmpi .ne w 0#32) (Ideal.ofBits .f32 0x3089705F#32) s

/-- A row's maximum, folded from −∞. -/
def rowMax (f : Fin 2048 → EReal) : EReal :=
  (Finset.univ : Finset (Fin 2048)).fold max (Ideal.ofBits .f32 0xFF800000#32) f

/-- One entry of a row's softmax, multiplied by the mask word of that entry. -/
def rowAtt (f : Fin 2048 → EReal) (w : Fin 2048 → BitVec 32) (t : Fin 2048) : EReal :=
  Ideal.div (Ideal.exp (f t - rowMax f)) (∑ u : Fin 2048, Ideal.exp (f u - rowMax f))
    * FloatOps.sitofp (F := Ideal) .f32 (w t)

/-- `rowAtt` depends on the row, the mask row and the position only. -/
theorem rowAtt_congr {f g : Fin 2048 → EReal} {w w' : Fin 2048 → BitVec 32} {t t' : Fin 2048}
    (hf : ∀ u, f u = g u) (hw : ∀ u, w u = w' u) (ht : t = t') : rowAtt f w t = rowAtt g w' t' := by
  rw [show f = g from funext hf, show w = w' from funext hw, ht]

abbrev SQ : Shape := ⟨4, ![2, 16, 2048, 128]⟩
abbrev SM : Shape := ⟨4, ![2, 1, 2048, 2048]⟩
abbrev SA : Shape := ⟨4, ![2, 16, 2048, 2048]⟩

/-- The scaled score of query row (b,h,s) against key row t. -/
def score (q k : SQ.Idx → EReal) (b : Fin 2) (h : Fin 16) (s t : Fin 2048) : EReal :=
  ∑ d : Fin 128, (q (ix4 b h s d) * scale) * k (ix4 b h t d)

/-- The filled score row of (b,h,s). -/
def filled (q k : SQ.Idx → EReal) (mask : SM.Idx → BitVec 32) (b : Fin 2) (h : Fin 16) (s : Fin 2048) :
    Fin 2048 → EReal :=
  fun t => fill (mask (ix4 b (0 : Fin 1) s t)) (score q k b h s t)

/-- The attention weights. -/
def attn (q k : SQ.Idx → EReal) (mask : SM.Idx → BitVec 32) : SA.Idx → EReal :=
  fun i => rowAtt (filled q k mask (i 0) (i 1) (i 2)) (fun t => mask (ix4 (i 0) (0 : Fin 1) (i 2) t)) (i 3)

/-- The weights contracted with the values. -/
def outp (q k v : SQ.Idx → EReal) (mask : SM.Idx → BitVec 32) : SQ.Idx → EReal :=
  fun i => ∑ t : Fin 2048, attn q k mask (ix4 (i 0) (i 1) (i 2) t) * v (ix4 (i 0) (i 1) t (i 3))

end Cert.Attn

end
-- ==== Proof.RefValue.lean ====
/-
  The reference's two results, read index by index, are the attention weights and their contraction with the values.

  The reference divides the queries by the divisor, which is the product with its exact reciprocal; its batched
  dot product is the score; its fill, row maximum (the fold over the key axis, then once more against −∞, which
  changes nothing), exponential, row sum (from the initial value 0) and quotient are the row softmax; the mask is
  broadcast over the heads.
-/
import proofs.«131482_j84731114816130_2_alg».proof.Proof.Gen.ReferenceIdeal.Read
import proofs.«131482_j84731114816130_2_alg».proof.Proof.AttnSpec

noncomputable section

namespace Cert.ReferenceIdeal.RefValue

open Cert.ReferenceIdeal Cert.ReferenceIdeal.Gen Cert.ReferenceIdeal.Read Idealize.ShloMosaic Idealize.ShloMosaic.ValueIdx
open Cert.Attn

variable (x0 x1 x2 : (⟨S2x16x2048x128, .f32⟩ : BufTy).Contents (Elt Ideal))
variable (x3 : (⟨S2x1x2048x2048, .i32⟩ : BufTy).Contents (Elt Ideal))

/-- The filled score at (b,h,s,t). -/
theorem v7_at (b : Fin 2) (h : Fin 16) (s t : Fin 2048) :
    val_main_v7 (F := Ideal) x0 x1 x3 (ix4 b h s t) = filled x0 x1 x3 b h s t := by
  have e0 : idx_main_call0_v0 (ix4 b h s t) = ix4 b (0 : Fin 1) s t :=
    funext fun a => Fin.ext (by match a with | ⟨0, _⟩ => rfl | ⟨1, _⟩ => rfl | ⟨2, _⟩ => rfl | ⟨3, _⟩ => rfl)
  have el : ∀ k, lidx_main_v2 (ix4 b h s t) k = ix4 b h s k := fun k =>
    funext fun a => Fin.ext (by match a with | ⟨0, _⟩ => rfl | ⟨1, _⟩ => rfl | ⟨2, _⟩ => rfl | ⟨3, _⟩ => rfl)
  have er : ∀ k, ridx_main_v2 (ix4 b h s t) k = ix4 b h t k := fun k =>
    funext fun a => Fin.ext (by match a with | ⟨0, _⟩ => rfl | ⟨1, _⟩ => rfl | ⟨2, _⟩ => rfl | ⟨3, _⟩ => rfl)
  rw [val_main_v7_apply, val_main_call0_v0_apply, val_main_v6_apply, val_main_v5_apply, val_main_v4_apply,
    val_main_c_apply, val_main_call0_v1_apply, val_main_cst_0_apply, val_main_v2_apply, e0]
  unfold filled fill score
  refine congrArg (Scalar.select _ _) (Finset.sum_congr rfl fun k _ => ?_)
  rw [el, er, val_main_v1_apply, val_main_v0_apply, val_main_cst_apply]
  exact congrArg (· * _) (div_divisor _)

/-- A maximum taken over the key axis, read at (b,h,s): the fold of `max` from the initial value along the row. -/
theorem red_at (y : S2x16x2048x2048.Idx → EReal) (c : S_.Idx → EReal) (b : Fin 2) (h : Fin 16) (s : Fin 2048) :
    Host.reduce (FloatOps.maximumf (F := Ideal) (φ := .f32)) y c reducesTo_S2x16x2048x2048_S2x16x2048_d3 h_S_ (ix3 b h s)
      = (Finset.univ : Finset (Fin 2048)).fold max (c (Shape.Idx.first h_S_)) (fun u => y (ix4 b h s u)) := by
  have hred : Shape.Reduces S2x16x2048x2048 [3] S2x16x2048 := by decide
  refine (Host.reduce_eq_fold_single (s := S2x16x2048x2048) (t := S2x16x2048) (a := (3 : Fin 4)) (u := S_)
    (FloatOps.maximumf (F := Ideal) (φ := .f32)) y c reducesTo_S2x16x2048x2048_S2x16x2048_d3 hred h_S_ (ix3 b h s)).trans ?_
  show (Finset.univ : Finset (Fin 2048)).fold max (c (Shape.Idx.first h_S_)) (fun u => y (hred.lift (ix3 b h s) u)) = _
  refine congrArg (fun f => (Finset.univ : Finset (Fin 2048)).fold max (c (Shape.Idx.first h_S_)) f) (funext fun u => ?_)
  exact congrArg y (funext fun a => Fin.ext (by match a with | ⟨0, _⟩ => rfl | ⟨1, _⟩ => rfl | ⟨2, _⟩ => rfl | ⟨3, _⟩ => rfl))

/-- The row maximum at (b,h,s). -/
theorem v8_at (b : Fin 2) (h : Fin 16) (s : Fin 2048) :
    val_main_v8 (F := Ideal) x0 x1 x3 (ix3 b h s) = rowMax (filled x0 x1 x3 b h s) := by
  have hy : ∀ t, val_main_v7 (F := Ideal) x0 x1 x3 (ix4 b h s t) = filled x0 x1 x3 b h s t := v7_at x0 x1 x3 b h s
  unfold val_main_v8
  generalize val_main_v7 (F := Ideal) x0 x1 x3 = y at hy
  refine (red_at y (val_main_cst_1 (F := Ideal)) b h s).trans ?_
  unfold rowMax
  exact congrArg (fun f => (Finset.univ : Finset (Fin 2048)).fold max (Ideal.ofBits .f32 0xFF800000#32) f) (funext hy)

/-- −∞ is below every extended real, so the second maximum against it changes nothing. -/
theorem ofBits_neg_inf : Ideal.ofBits .f32 0xFF800000#32 = ⊥ := by
  simp [Ideal.ofBits, Ideal.ieee]

/-- The exponential of the shifted filled score at (b,h,s,t). -/
theorem v14_at (b : Fin 2) (h : Fin 16) (s t : Fin 2048) :
    val_main_v14 (F := Ideal) x0 x1 x3 (ix4 b h s t)
      = Ideal.exp (filled x0 x1 x3 b h s t - rowMax (filled x0 x1 x3 b h s)) := by
  have e12 : idx_main_v12 (ix4 b h s t) = ix4 b h s (0 : Fin 1) :=
    funext fun a => Fin.ext (by match a with | ⟨0, _⟩ => rfl | ⟨1, _⟩ => rfl | ⟨2, _⟩ => rfl | ⟨3, _⟩ => rfl)
  have e11 : idx_main_v11 (ix4 b h s (0 : Fin 1)) = ix3 b h s :=
    funext fun a => Fin.ext (by match a with | ⟨0, _⟩ => rfl | ⟨1, _⟩ => rfl | ⟨2, _⟩ => rfl)
  rw [val_main_v14_apply, val_main_v13_apply, val_main_v12_apply, e12, val_main_v11_apply, e11, val_main_v10_apply,
    val_main_v9_apply, val_main_cst_2_apply, v7_at, v8_at]
  show Ideal.exp (_ - max (Ideal.ofBits .f32 0xFF800000#32) _) = _
  rw [ofBits_neg_inf, max_eq_right bot_le]

/-- The row sum at (b,h,s). -/
theorem v15_at (b : Fin 2) (h : Fin 16) (s : Fin 2048) :
    val_main_v15 (F := Ideal) x0 x1 x3 (ix3 b h s)
      = ∑ u : Fin 2048, Ideal.exp (filled x0 x1 x3 b h s u - rowMax (filled x0 x1 x3 b h s)) := by
  rw [val_main_v15_apply, val_main_cst_3_apply]
  show Ideal.ofBits .f32 0x00000000#32 + _ = _
  rw [Ideal.ofBits_zero_f32, zero_add]
  refine Finset.sum_congr rfl fun u _ => ?_
  rw [show idx_main_v15 (ix3 b h s) u = ix4 b h s u from
    funext fun a => Fin.ext (by match a with | ⟨0, _⟩ => rfl | ⟨1, _⟩ => rfl | ⟨2, _⟩ => rfl | ⟨3, _⟩ => rfl)]
  exact v14_at x0 x1 x3 b h s u

/-- The reference's second result is the attention weights. -/
theorem v20_eq : val_main_v20 (F := Ideal) x0 x1 x3 = attn x0 x1 x3 := by
  funext i
  obtain ⟨b, h, s, t, rfl⟩ : ∃ (b : Fin 2) (h : Fin 16) (s t : Fin 2048), i = ix4 b h s t :=
    ⟨i 0, i 1, i 2, i 3, eq_ix4 i⟩
  have e17 : idx_main_v17 (ix4 b h s t) = ix4 b h s (0 : Fin 1) :=
    funext fun a => Fin.ext (by match a with | ⟨0, _⟩ => rfl | ⟨1, _⟩ => rfl | ⟨2, _⟩ => rfl | ⟨3, _⟩ => rfl)
  have e16 : idx_main_v16 (ix4 b h s (0 : Fin 1)) = ix3 b h s :=
    funext fun a => Fin.ext (by match a with | ⟨0, _⟩ => rfl | ⟨1, _⟩ => rfl | ⟨2, _⟩ => rfl)
  have e19 : idx_main_v19 (ix4 b h s t) = ix4 b (0 : Fin 1) s t :=
    funext fun a => Fin.ext (by match a with | ⟨0, _⟩ => rfl | ⟨1, _⟩ => rfl | ⟨2, _⟩ => rfl | ⟨3, _⟩ => rfl)
  rw [val_main_v20_apply, val_main_v18_apply, val_main_v17_apply, e17, val_main_v16_apply, e16, v15_at, v14_at,
    val_main_v19_apply, e19, val_main_v3_apply]
  rfl

/-- The reference's first result is the weights contracted with the values. -/
theorem v21_eq : val_main_v21 (F := Ideal) x0 x1 x2 x3 = outp x0 x1 x2 x3 := by
  funext i
  obtain ⟨b, h, s, d, rfl⟩ : ∃ (b : Fin 2) (h : Fin 16) (s : Fin 2048) (d : Fin 128), i = ix4 b h s d :=
    ⟨i 0, i 1, i 2, i 3, eq_ix4 i⟩
  rw [val_main_v21_apply, v20_eq]
  unfold outp
  refine Finset.sum_congr rfl fun u _ => ?_
  rw [show lidx_main_v21 (ix4 b h s d) u = ix4 b h s u from
      funext fun a => Fin.ext (by match a with | ⟨0, _⟩ => rfl | ⟨1, _⟩ => rfl | ⟨2, _⟩ => rfl | ⟨3, _⟩ => rfl),
    show ridx_main_v21 (ix4 b h s d) u = ix4 b h u d from
      funext fun a => Fin.ext (by match a with | ⟨0, _⟩ => rfl | ⟨1, _⟩ => rfl | ⟨2, _⟩ => rfl | ⟨3, _⟩ => rfl)]

end Cert.ReferenceIdeal.RefValue

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.KernelRow.lean ====
/-
  The kernel body's two stored values, read at an index of the block, over the extended reals.

  With the query block Q (1024 × 128), the key and value blocks K, V (2048 × 128) and the mask block M (1024 × 2048):
  the scores are the matrix product of the scaled queries with the keys, contracted over the 128 features; each row is
  filled where the mask word is not zero, normalised by the softmax taken at the row maximum, and multiplied by the mask
  word read as a signed integer; the second stored value is the matrix product of these weights with V, contracted
  over the 2048 keys.
-/
import proofs.«131482_j84731114816130_2_alg».proof.Proof.Gen.KernelIdeal.Skeleton
import proofs.«131482_j84731114816130_2_alg».proof.Proof.AttnSpec
import proofs.«131482_j84731114816130_2_alg».proof.Proof.LibDotSingle
import Idealize.ShloMosaic.Lib.Pipeline.Value
import Idealize.ShloMosaic.PureOps.IdealRules

noncomputable section

namespace Cert.KernelIdeal.Row

open Cert.KernelIdeal Cert.KernelIdeal.Gen Idealize.ShloMosaic Idealize.ShloMosaic.ValueIdx
open Cert.Attn

/-! ## Layout operations of the body, read at an index -/

/-- A block with two leading unit axes, cast to a matrix, read at (r, c). -/
theorem cast_q {α : Type} (x : S1x1x1024x128.Idx → α) (h : S1x1x1024x128.ShapeCasts S1024x128) (r : Fin 1024) (c : Fin 128) :
    shapeCast S1024x128 x h (ix2 r c) = x (ix4 (0 : Fin 1) (0 : Fin 1) r c) :=
  shapeCast_apply x h (ix2 r c) (ix4 (0 : Fin 1) (0 : Fin 1) r c) (by
    rw [Shape.rowMajor_val_four, Shape.rowMajor_val_two]
    show ((0 * 1 + 0) * 1024 + r.val) * 128 + c.val = r.val * 128 + c.val; omega)

theorem cast_k {α : Type} (x : S1x1x2048x128.Idx → α) (h : S1x1x2048x128.ShapeCasts S2048x128) (r : Fin 2048) (c : Fin 128) :
    shapeCast S2048x128 x h (ix2 r c) = x (ix4 (0 : Fin 1) (0 : Fin 1) r c) :=
  shapeCast_apply x h (ix2 r c) (ix4 (0 : Fin 1) (0 : Fin 1) r c) (by
    rw [Shape.rowMajor_val_four, Shape.rowMajor_val_two]
    show ((0 * 1 + 0) * 2048 + r.val) * 128 + c.val = r.val * 128 + c.val; omega)

theorem cast_m {α : Type} (x : S1x1x1024x2048.Idx → α) (h : S1x1x1024x2048.ShapeCasts S1024x2048) (r : Fin 1024) (c : Fin 2048) :
    shapeCast S1024x2048 x h (ix2 r c) = x (ix4 (0 : Fin 1) (0 : Fin 1) r c) :=
  shapeCast_apply x h (ix2 r c) (ix4 (0 : Fin 1) (0 : Fin 1) r c) (by
    rw [Shape.rowMajor_val_four, Shape.rowMajor_val_two]
    show ((0 * 1 + 0) * 1024 + r.val) * 2048 + c.val = r.val * 2048 + c.val; omega)

/-- A per-row value kept as a column and broadcast along the row: every entry of row r holds the value of r. -/
theorem keep_at {α : Type} (v : S1024.Idx → α) (h1 : S1024.ShapeCasts S1024x1) (h2 : S1024x1.Broadcasts S1024x2048)
    (r : Fin 1024) (t : Fin 2048) :
    broadcastTo S1024x2048 (shapeCast S1024x1 v h1) h2 (ix2 r t) = v (ix1 r) := by
  refine (broadcastTo_apply _ h2 (ix2 r t) (ix2 r (0 : Fin 1)) ?_).trans ?_
  · intro a
    match a with
    | ⟨0, _⟩ => show r.val = if (1024 : Nat) = 1 then 0 else r.val; rw [if_neg (by decide)]
    | ⟨1, _⟩ => show 0 = if (1 : Nat) = 1 then 0 else t.val; rw [if_pos rfl]
  · exact shapeCast_apply v h1 (ix2 r (0 : Fin 1)) (ix1 r) (by
      rw [Shape.rowMajor_val_one, Shape.rowMajor_val_two]
      show r.val = r.val * 1 + 0; omega)

/-! ## The reductions along a row -/

/-- The row maximum of a block, as the body reduces it, is the fold of `max` from −∞ along the row. -/
theorem max_at (A : FVec Ideal S1024x2048 .f32) (r : Fin 1024) :
    multiReduction .maximumf [1] S1024 A 0xFF800000#32 reduces_S1024x2048_S1024 (.inl rfl) rfl (ix1 r)
      = rowMax (fun u => A (ix2 r u)) := by
  refine (Ideal.multiReduction_maximumf_single A 0xFF800000#32 reduces_S1024x2048_S1024 (.inl rfl) rfl (ix1 r)).trans ?_
  unfold rowMax
  show (Finset.univ : Finset (Fin 2048)).fold max (Ideal.ofBits .f32 0xFF800000#32)
    (fun u => A (reduces_S1024x2048_S1024.lift (ix1 r) u)) = _
  refine congrArg (fun f => (Finset.univ : Finset (Fin 2048)).fold max (Ideal.ofBits .f32 0xFF800000#32) f)
    (funext fun u => congrArg A (funext fun a => Fin.ext (by match a with | ⟨0, _⟩ => rfl | ⟨1, _⟩ => rfl)))

/-- The row sum of a block, as the body reduces it, is the sum along the row. -/
theorem sum_at (A : FVec Ideal S1024x2048 .f32) (r : Fin 1024) :
    multiReduction .add [1] S1024 A 0x00000000#32 reduces_S1024x2048_S1024 (.inl rfl) rfl (ix1 r)
      = ∑ u : Fin 2048, A (ix2 r u) := by
  refine (Ideal.multiReduction_add_single A 0x00000000#32 reduces_S1024x2048_S1024 (.inl rfl) rfl (ix1 r)).trans ?_
  show ∑ u : Fin 2048, A (reduces_S1024x2048_S1024.lift (ix1 r) u) = _
  exact Finset.sum_congr rfl fun u _ =>
    congrArg A (funext fun a => Fin.ext (by match a with | ⟨0, _⟩ => rfl | ⟨1, _⟩ => rfl))

/-! ## The two matrix products -/

theorem qk_lhs_0 (j : S1024x2048.Idx) (q : dot_S1024x128_S2048x128_S1024x2048_1_1_0_0_n_n.contr.Idx) : (dot_S1024x128_S2048x128_S1024x2048_1_1_0_0_n_n.lhsIdx j q 0).val = (j 0).val := by
  unfold DotDims.lhsIdx
  rw [dif_neg (show ¬(0 : Fin S1024x128.rank) ∈ dot_S1024x128_S2048x128_S1024x2048_1_1_0_0_n_n.lhsBatch by decide),
    dif_pos (show (0 : Fin S1024x128.rank) ∈ dot_S1024x128_S2048x128_S1024x2048_1_1_0_0_n_n.lhsNonContracting by decide)]
  rfl
theorem qk_lhs_1 (j : S1024x2048.Idx) (q : dot_S1024x128_S2048x128_S1024x2048_1_1_0_0_n_n.contr.Idx) : (dot_S1024x128_S2048x128_S1024x2048_1_1_0_0_n_n.lhsIdx j q 1).val = (q ⟨0, by decide⟩).val :=
  dot_S1024x128_S2048x128_S1024x2048_1_1_0_0_n_n.lhsIdx_val_of_single rfl j q
theorem qk_rhs_0 (j : S1024x2048.Idx) (q : dot_S1024x128_S2048x128_S1024x2048_1_1_0_0_n_n.contr.Idx) : (dot_S1024x128_S2048x128_S1024x2048_1_1_0_0_n_n.rhsIdx j q 0).val = (j 1).val := by
  unfold DotDims.rhsIdx
  rw [dif_neg (show ¬(0 : Fin S2048x128.rank) ∈ dot_S1024x128_S2048x128_S1024x2048_1_1_0_0_n_n.rhsBatch by decide),
    dif_pos (show (0 : Fin S2048x128.rank) ∈ dot_S1024x128_S2048x128_S1024x2048_1_1_0_0_n_n.rhsNonContracting by decide)]
  rfl
theorem qk_rhs_1 (j : S1024x2048.Idx) (q : dot_S1024x128_S2048x128_S1024x2048_1_1_0_0_n_n.contr.Idx) : (dot_S1024x128_S2048x128_S1024x2048_1_1_0_0_n_n.rhsIdx j q 1).val = (q ⟨0, by decide⟩).val :=
  dot_S1024x128_S2048x128_S1024x2048_1_1_0_0_n_n.rhsIdx_val_of_single rfl j q

/-- The score product, contracted over the features: entry (r, t) pairs row r of the left operand with row t of the
    right operand. -/
theorem dot_qk_at (x : FVec Ideal S1024x128 .f32) (w : FVec Ideal S2048x128 .f32) (r : Fin 1024) (t : Fin 2048) :
    matmul dot_S1024x128_S2048x128_S1024x2048_1_1_0_0_n_n (some .fp32) x w (constant (F := Ideal) S1024x2048 .f32 0x00000000#32) (ix2 r t)
      = ∑ d : Fin 128, x (ix2 r d) * w (ix2 t d) := by
  refine Cert.LibDotSingle.matmul_zero_apply dot_S1024x128_S2048x128_S1024x2048_1_1_0_0_n_n 128 rfl rfl (some .fp32) x w (ix2 r t)
    (fun d => ix2 r d) (fun d => ix2 t d) (fun d => ?_) (fun d => ?_)
  · have hk := contrEquiv1_symm_val dot_S1024x128_S2048x128_S1024x2048_1_1_0_0_n_n 128 rfl rfl d
    exact funext fun a => Fin.ext (by
      match a with
      | ⟨0, _⟩ => exact qk_lhs_0 _ _
      | ⟨1, _⟩ => exact (qk_lhs_1 _ _).trans hk)
  · have hk := contrEquiv1_symm_val dot_S1024x128_S2048x128_S1024x2048_1_1_0_0_n_n 128 rfl rfl d
    exact funext fun a => Fin.ext (by
      match a with
      | ⟨0, _⟩ => exact qk_rhs_0 _ _
      | ⟨1, _⟩ => exact (qk_rhs_1 _ _).trans hk)

theorem av_lhs_0 (j : S1024x128.Idx) (q : dot_S1024x2048_S2048x128_S1024x128_1_0_0_1_n_n.contr.Idx) : (dot_S1024x2048_S2048x128_S1024x128_1_0_0_1_n_n.lhsIdx j q 0).val = (j 0).val := by
  unfold DotDims.lhsIdx
  rw [dif_neg (show ¬(0 : Fin S1024x2048.rank) ∈ dot_S1024x2048_S2048x128_S1024x128_1_0_0_1_n_n.lhsBatch by decide),
    dif_pos (show (0 : Fin S1024x2048.rank) ∈ dot_S1024x2048_S2048x128_S1024x128_1_0_0_1_n_n.lhsNonContracting by decide)]
  rfl
theorem av_lhs_1 (j : S1024x128.Idx) (q : dot_S1024x2048_S2048x128_S1024x128_1_0_0_1_n_n.contr.Idx) : (dot_S1024x2048_S2048x128_S1024x128_1_0_0_1_n_n.lhsIdx j q 1).val = (q ⟨0, by decide⟩).val :=
  dot_S1024x2048_S2048x128_S1024x128_1_0_0_1_n_n.lhsIdx_val_of_single rfl j q
theorem av_rhs_0 (j : S1024x128.Idx) (q : dot_S1024x2048_S2048x128_S1024x128_1_0_0_1_n_n.contr.Idx) : (dot_S1024x2048_S2048x128_S1024x128_1_0_0_1_n_n.rhsIdx j q 0).val = (q ⟨0, by decide⟩).val :=
  dot_S1024x2048_S2048x128_S1024x128_1_0_0_1_n_n.rhsIdx_val_of_single rfl j q
theorem av_rhs_1 (j : S1024x128.Idx) (q : dot_S1024x2048_S2048x128_S1024x128_1_0_0_1_n_n.contr.Idx) : (dot_S1024x2048_S2048x128_S1024x128_1_0_0_1_n_n.rhsIdx j q 1).val = (j 1).val := by
  unfold DotDims.rhsIdx
  rw [dif_neg (show ¬(1 : Fin S2048x128.rank) ∈ dot_S1024x2048_S2048x128_S1024x128_1_0_0_1_n_n.rhsBatch by decide),
    dif_pos (show (1 : Fin S2048x128.rank) ∈ dot_S1024x2048_S2048x128_S1024x128_1_0_0_1_n_n.rhsNonContracting by decide)]
  rfl

/-- The value product, contracted over the keys: entry (r, d) pairs row r of the weights with column d of the values. -/
theorem dot_av_at (x : FVec Ideal S1024x2048 .f32) (w : FVec Ideal S2048x128 .f32) (r : Fin 1024) (d : Fin 128) :
    matmul dot_S1024x2048_S2048x128_S1024x128_1_0_0_1_n_n (some .fp32) x w (constant (F := Ideal) S1024x128 .f32 0x00000000#32) (ix2 r d)
      = ∑ u : Fin 2048, x (ix2 r u) * w (ix2 u d) := by
  refine Cert.LibDotSingle.matmul_zero_apply dot_S1024x2048_S2048x128_S1024x128_1_0_0_1_n_n 2048 rfl rfl (some .fp32) x w (ix2 r d)
    (fun u => ix2 r u) (fun u => ix2 u d) (fun u => ?_) (fun u => ?_)
  · have hk := contrEquiv1_symm_val dot_S1024x2048_S2048x128_S1024x128_1_0_0_1_n_n 2048 rfl rfl u
    exact funext fun a => Fin.ext (by
      match a with
      | ⟨0, _⟩ => exact av_lhs_0 _ _
      | ⟨1, _⟩ => exact (av_lhs_1 _ _).trans hk)
  · have hk := contrEquiv1_symm_val dot_S1024x2048_S2048x128_S1024x128_1_0_0_1_n_n 2048 rfl rfl u
    exact funext fun a => Fin.ext (by
      match a with
      | ⟨0, _⟩ => exact (av_rhs_0 _ _).trans hk
      | ⟨1, _⟩ => exact av_rhs_1 _ _)

/-! ## The body's stages -/

/-- The named reciprocal denotes `scale`. -/
theorem inv_temp : Named.named (F := Ideal) κ "inv_temp" (φ := .f32) 0x3DB504F3#32 = scale :=
  IdealRules.named_const.ideal_named_scalar _ _ _ _ rfl

/-- The score block. -/
def scoresB (P0 : Vec Ideal S1x1x1024x128 .f32) (P1 : Vec Ideal S1x1x2048x128 .f32) : FVec Ideal S1024x2048 .f32 :=
  matmul dot_S1024x128_S2048x128_S1024x2048_1_1_0_0_n_n (some .fp32)
    (mulf (shapeCast S1024x128 P0 shapeCasts_S1x1x1024x128_S1024x128 : FVec Ideal S1024x128 .f32)
      (broadcast S1024x128 (Named.named κ "inv_temp" (φ := .f32) 0x3DB504F3#32)))
    (shapeCast S2048x128 P1 shapeCasts_S1x1x2048x128_S2048x128 : FVec Ideal S2048x128 .f32) (constant S1024x2048 .f32 0x00000000#32)

/-- The mask block as a matrix. -/
def maskB (P2 : Vec Ideal S1x1x1024x2048 .i32) : IVec S1024x2048 32 :=
  shapeCast S1024x2048 P2 shapeCasts_S1x1x1024x2048_S1024x2048

/-- The filled score block. -/
def filledB (P0 : Vec Ideal S1x1x1024x128 .f32) (P1 : Vec Ideal S1x1x2048x128 .f32) (P2 : Vec Ideal S1x1x1024x2048 .i32) :
    FVec Ideal S1024x2048 .f32 :=
  select (cmpi .ne (maskB P2) (broadcast S1024x2048 0#32)) (broadcast S1024x2048 (Scalar.ofBits .f32 0x3089705F#32)) (scoresB P0 P1)

/-- The shifted exponentials of a block. -/
def expB (A : FVec Ideal S1024x2048 .f32) : FVec Ideal S1024x2048 .f32 :=
  exp (subf A (broadcastTo S1024x2048 (shapeCast S1024x1
    (multiReduction .maximumf [1] S1024 A 0xFF800000#32 reduces_S1024x2048_S1024 (.inl rfl) rfl) shapeCasts_S1024_S1024x1)
    broadcasts_S1024x1_S1024x2048))

/-- The row softmax of a block. -/
def softB (A : FVec Ideal S1024x2048 .f32) : FVec Ideal S1024x2048 .f32 :=
  divf (expB A) (broadcastTo S1024x2048 (shapeCast S1024x1
    (multiReduction .add [1] S1024 (expB A) 0x00000000#32 reduces_S1024x2048_S1024 (.inl rfl) rfl) shapeCasts_S1024_S1024x1)
    broadcasts_S1024x1_S1024x2048)

/-- The first payload is these stages composed. -/
theorem pay2_eq (P0 : Vec Ideal S1x1x1024x128 .f32) (P1 : Vec Ideal S1x1x2048x128 .f32) (P2 : Vec Ideal S1x1x1024x2048 .i32) :
    k0_pay2 (F := Ideal) P0 P1 P2 = mulf (softB (filledB P0 P1 P2)) (sitofp .f32 (maskB P2)) := rfl

theorem scoresB_at (P0 : Vec Ideal S1x1x1024x128 .f32) (P1 : Vec Ideal S1x1x2048x128 .f32) (r : Fin 1024) (t : Fin 2048) :
    scoresB P0 P1 (ix2 r t)
      = ∑ d : Fin 128, (P0 (ix4 (0 : Fin 1) (0 : Fin 1) r d) * scale) * P1 (ix4 (0 : Fin 1) (0 : Fin 1) t d) := by
  unfold scoresB
  refine (dot_qk_at _ _ r t).trans (Finset.sum_congr rfl fun d _ => ?_)
  rw [cast_k]
  show ((shapeCast S1024x128 P0 shapeCasts_S1x1x1024x128_S1024x128 : FVec Ideal S1024x128 .f32) (ix2 r d)
    * Named.named (F := Ideal) κ "inv_temp" (φ := .f32) 0x3DB504F3#32) * _ = _
  rw [cast_q, inv_temp]

theorem maskB_at (P2 : Vec Ideal S1x1x1024x2048 .i32) (r : Fin 1024) (t : Fin 2048) :
    maskB P2 (ix2 r t) = P2 (ix4 (0 : Fin 1) (0 : Fin 1) r t) := cast_m P2 _ r t

theorem expB_at (A : FVec Ideal S1024x2048 .f32) (r : Fin 1024) (t : Fin 2048) :
    expB A (ix2 r t) = Ideal.exp (A (ix2 r t) - rowMax (fun u => A (ix2 r u))) := by
  show Ideal.exp (A (ix2 r t) - broadcastTo S1024x2048 (shapeCast S1024x1
    (multiReduction .maximumf [1] S1024 A 0xFF800000#32 reduces_S1024x2048_S1024 (.inl rfl) rfl) shapeCasts_S1024_S1024x1)
    broadcasts_S1024x1_S1024x2048 (ix2 r t)) = _
  rw [keep_at, max_at]

theorem softB_at (A : FVec Ideal S1024x2048 .f32) (r : Fin 1024) (t : Fin 2048) :
    softB A (ix2 r t) = Ideal.div (Ideal.exp (A (ix2 r t) - rowMax (fun u => A (ix2 r u))))
      (∑ u : Fin 2048, Ideal.exp (A (ix2 r u) - rowMax (fun u => A (ix2 r u)))) := by
  show Ideal.div (expB A (ix2 r t)) (broadcastTo S1024x2048 (shapeCast S1024x1
    (multiReduction .add [1] S1024 (expB A) 0x00000000#32 reduces_S1024x2048_S1024 (.inl rfl) rfl) shapeCasts_S1024_S1024x1)
    broadcasts_S1024x1_S1024x2048 (ix2 r t)) = _
  rw [keep_at, sum_at, expB_at]
  exact congrArg (Ideal.div _) (Finset.sum_congr rfl fun u _ => expB_at A r u)

/-- THE FIRST PAYLOAD at (r, t): the softmax weight of row r at t, of the filled scores of the loaded blocks. -/
theorem pay2_at (P0 : Vec Ideal S1x1x1024x128 .f32) (P1 : Vec Ideal S1x1x2048x128 .f32) (P2 : Vec Ideal S1x1x1024x2048 .i32)
    (r : Fin 1024) (t : Fin 2048) :
    k0_pay2 (F := Ideal) P0 P1 P2 (ix2 r t)
      = rowAtt (fun u => fill (P2 (ix4 (0 : Fin 1) (0 : Fin 1) r u))
          (∑ d : Fin 128, (P0 (ix4 (0 : Fin 1) (0 : Fin 1) r d) * scale) * P1 (ix4 (0 : Fin 1) (0 : Fin 1) u d)))
        (fun u => P2 (ix4 (0 : Fin 1) (0 : Fin 1) r u)) t := by
  have hA : ∀ u : Fin 2048, filledB P0 P1 P2 (ix2 r u) = fill (P2 (ix4 (0 : Fin 1) (0 : Fin 1) r u))
      (∑ d : Fin 128, (P0 (ix4 (0 : Fin 1) (0 : Fin 1) r d) * scale) * P1 (ix4 (0 : Fin 1) (0 : Fin 1) u d)) := fun u => by
    show Scalar.select (IntOp.cmpi .ne (maskB P2 (ix2 r u)) 0#32) (Ideal.ofBits .f32 0x3089705F#32) (scoresB P0 P1 (ix2 r u)) = _
    rw [maskB_at, scoresB_at]
    rfl
  rw [pay2_eq]
  show softB (filledB P0 P1 P2) (ix2 r t) * FloatOps.sitofp (F := Ideal) .f32 (maskB P2 (ix2 r t)) = _
  rw [softB_at, maskB_at]
  unfold rowAtt
  simp only [hA]

/-- THE SECOND PAYLOAD at (r, d): the weights of row r contracted with column d of the value block. -/
theorem pay1_at (W : FVec Ideal S1024x2048 .f32) (P3 : Vec Ideal S1x1x2048x128 .f32) (y0 y1 : Fin 1) (r : Fin 1024) (d : Fin 128) :
    k0_pay1 (F := Ideal) W (k0_pay4 P3) (constant S1024x128 .f32 0x00000000#32) (ix4 y0 y1 r d)
      = ∑ u : Fin 2048, W (ix2 r u) * P3 (ix4 (0 : Fin 1) (0 : Fin 1) u d) := by
  have e : k0_pay1 (F := Ideal) W (k0_pay4 P3) (constant S1024x128 .f32 0x00000000#32)
      = shapeCast S1x1x1024x128 (matmul dot_S1024x2048_S2048x128_S1024x128_1_0_0_1_n_n (some .fp32) W
          (shapeCast S2048x128 P3 shapeCasts_S1x1x2048x128_S2048x128 : FVec Ideal S2048x128 .f32) (constant S1024x128 .f32 0x00000000#32))
          shapeCasts_S1024x128_S1x1x1024x128 := rfl
  rw [e]
  refine (shapeCast_apply _ _ (ix4 y0 y1 r d) (ix2 r d) (by
    rw [Shape.rowMajor_val_two, Shape.rowMajor_val_four]
    show r.val * 128 + d.val = ((y0.val * 1 + y1.val) * 1024 + r.val) * 128 + d.val
    have h0 := y0.isLt; have h1 := y1.isLt; omega)).trans ?_
  refine (dot_av_at _ _ r d).trans (Finset.sum_congr rfl fun u _ => ?_)
  rw [cast_k]

/-- The stored weights block is the first payload with two unit axes in front. -/
theorem pay3_at (P0 : Vec Ideal S1x1x1024x128 .f32) (P1 : Vec Ideal S1x1x2048x128 .f32) (P2 : Vec Ideal S1x1x1024x2048 .i32)
    (y0 y1 : Fin 1) (r : Fin 1024) (u : Fin 2048) :
    k0_pay3 (F := Ideal) P0 P1 P2 (ix4 y0 y1 r u) = k0_pay2 (F := Ideal) P0 P1 P2 (ix2 r u) := by
  show shapeCast S1x1x1024x2048 (k0_pay2 (F := Ideal) P0 P1 P2) shapeCasts_S1024x2048_S1x1x1024x2048 (ix4 y0 y1 r u) = _
  exact shapeCast_apply _ _ (ix4 y0 y1 r u) (ix2 r u) (by
    rw [Shape.rowMajor_val_two, Shape.rowMajor_val_four]
    show r.val * 2048 + u.val = ((y0.val * 1 + y1.val) * 1024 + r.val) * 2048 + u.val
    have h0 := y0.isLt; have h1 := y1.isLt; omega)

/-! ## The payloads against the whole-array functions

When the loaded blocks are the rows of the arrays Q, K, V, M that the array index `e` names — the query row (e 0, e 1, e 2),
every key and value row of (e 0, e 1), the mask row (e 0, 0, e 2) — the payload entries are the whole-array functions at `e`. -/

theorem attn_block (Q K : SQ.Idx → EReal) (M : SM.Idx → BitVec 32)
    (P0 : Vec Ideal S1x1x1024x128 .f32) (P1 : Vec Ideal S1x1x2048x128 .f32) (P2 : Vec Ideal S1x1x1024x2048 .i32)
    (r : Fin 1024) (u : Fin 2048) (e : SA.Idx) (hu : (e 3).val = u.val)
    (h0 : ∀ d : Fin 128, P0 (ix4 (0 : Fin 1) (0 : Fin 1) r d) = Q (ix4 (e 0) (e 1) (e 2) d))
    (h1 : ∀ (u' : Fin 2048) (d : Fin 128), P1 (ix4 (0 : Fin 1) (0 : Fin 1) u' d) = K (ix4 (e 0) (e 1) u' d))
    (h3 : ∀ u' : Fin 2048, P2 (ix4 (0 : Fin 1) (0 : Fin 1) r u') = M (ix4 (e 0) (0 : Fin 1) (e 2) u')) :
    k0_pay2 (F := Ideal) P0 P1 P2 (ix2 r u) = attn Q K M e := by
  refine (pay2_at P0 P1 P2 r u).trans ?_
  unfold attn
  refine rowAtt_congr (fun u' => ?_) h3 (Fin.ext hu.symm)
  unfold filled score
  rw [h3 u']
  exact congrArg (fill _) (Finset.sum_congr rfl fun d _ => by rw [h0 d, h1 u' d])

theorem out_block (Q K V' : SQ.Idx → EReal) (M : SM.Idx → BitVec 32)
    (P0 : Vec Ideal S1x1x1024x128 .f32) (P1 P3 : Vec Ideal S1x1x2048x128 .f32) (P2 : Vec Ideal S1x1x1024x2048 .i32)
    (y0 y1 : Fin 1) (r : Fin 1024) (d : Fin 128) (e : SQ.Idx)
    (h0 : ∀ d' : Fin 128, P0 (ix4 (0 : Fin 1) (0 : Fin 1) r d') = Q (ix4 (e 0) (e 1) (e 2) d'))
    (h1 : ∀ (u' : Fin 2048) (d' : Fin 128), P1 (ix4 (0 : Fin 1) (0 : Fin 1) u' d') = K (ix4 (e 0) (e 1) u' d'))
    (h2 : ∀ u' : Fin 2048, P3 (ix4 (0 : Fin 1) (0 : Fin 1) u' d) = V' (ix4 (e 0) (e 1) u' (e 3)))
    (h3 : ∀ u' : Fin 2048, P2 (ix4 (0 : Fin 1) (0 : Fin 1) r u') = M (ix4 (e 0) (0 : Fin 1) (e 2) u')) :
    k0_pay1 (F := Ideal) (k0_pay2 (F := Ideal) P0 P1 P2) (k0_pay4 P3) (constant S1024x128 .f32 0x00000000#32) (ix4 y0 y1 r d)
      = outp Q K V' M e := by
  refine (pay1_at _ P3 y0 y1 r d).trans ?_
  unfold outp
  refine Finset.sum_congr rfl fun u _ => ?_
  rw [h2 u]
  exact congrArg (· * _) (attn_block Q K M P0 P1 P2 r u (ix4 (e 0) (e 1) (e 2) u) rfl h0 h1 h3)

end Cert.KernelIdeal.Row

end
-- ==== Proof.KernelBlocks.lean ====
/-
  From blocks to arrays: after the run the kernel's two result arrays are the whole-array attention functions.

  Grid point t stages the query block of (batch, head, query tile), every key and value row of (batch, head), and the mask
  tile of (batch, query tile); it writes back the weights tile and the output tile of (batch, head, query tile).  A block's
  element sits in its array, on each axis, at block index × block extent + its coordinate, so the rows the body loaded are
  the rows the whole-array functions read at the written index; the 64 tiles of each result cover it.
-/
import proofs.«131482_j84731114816130_2_alg».proof.Proof.Gen.KernelIdeal.Value
import proofs.«131482_j84731114816130_2_alg».proof.Proof.KernelRow

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.Attn

variable (m : (ℓ : Loc nD τ sig) → Buf (Elt Ideal) ℓ) (ρ : Dev nD → PrngReg)

theorem hz : (![0, 0, 0, 0] : Fin 4 → Nat) = fun _ => 0 := funext fun a => by fin_cases a <;> rfl

/-- The block indices of the six windows at a grid point, against those of the weights window: the queries and the output
    move with it; the keys and values follow its batch and head only; the mask its batch and query tile only. -/
theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 4) = win0_5.index t (0 : Fin 4) ∧ win0_3.index t (1 : Fin 4) = 0
      ∧ win0_3.index t (2 : Fin 4) = win0_5.index t (2 : Fin 4) ∧ win0_3.index t (3 : Fin 4) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (win0_5.index t (0 : Fin 4) ≤ 1 ∧ win0_5.index t (1 : Fin 4) ≤ 15 ∧ win0_5.index t (2 : Fin 4) ≤ 1
      ∧ win0_5.index t (3 : Fin 4) = 0) :=
  (by decide +kernel : ∀ t : Fin grid0.N, _)

/-- Every (batch, head, query tile) is some grid point's. -/
theorem idx_onto : ∀ (q0 : Fin 2) (q1 : Fin 16) (q2 : Fin 2), ∃ t : Fin cfg0.N,
    win0_5.index t = ![q0.val, q1.val, q2.val, 0] ∧ win0_4.index t = ![q0.val, q1.val, q2.val, 0] :=
  (by decide +kernel : ∀ (q0 : Fin 2) (q1 : Fin 16) (q2 : Fin 2), ∃ t : Fin grid0.N,
    win0_5.index t = ![q0.val, q1.val, q2.val, 0] ∧ win0_4.index t = ![q0.val, q1.val, q2.val, 0])

/-! ## The loaded blocks are rows of the arrays -/

theorem read0 (c : Dev nD) (t : Fin cfg0.N) (r : Fin 1024) (d : Fin 128) (i : S2x16x2048x128.Idx)
    (h0 : win0_0.index t (0 : Fin 4) = (i 0).val) (h1 : win0_0.index t (1 : Fin 4) = (i 1).val)
    (h2 : win0_0.index t (2 : Fin 4) * 1024 + r.val = (i 2).val) (h3 : win0_0.index t (3 : Fin 4) * 128 + d.val = (i 3).val) :
    iblk m c 0 t (ix4 (0 : Fin 1) (0 : Fin 1) r d) = V m c main_arg0 i := by
  show V m c main_arg0 (((cfg0.win 0).blk t).view.emb (ix4 (0 : Fin 1) (0 : Fin 1) r d)) = V m c main_arg0 i
  refine congrArg (V m c main_arg0) (funext fun a => Fin.ext ?_)
  match a with
  | ⟨0, _⟩ => show win0_0.index t (0 : Fin 4) * 1 + 1 * 0 = (i 0).val; omega
  | ⟨1, _⟩ => show win0_0.index t (1 : Fin 4) * 1 + 1 * 0 = (i 1).val; omega
  | ⟨2, _⟩ => show win0_0.index t (2 : Fin 4) * 1024 + 1 * r.val = (i 2).val; omega
  | ⟨3, _⟩ => show win0_0.index t (3 : Fin 4) * 128 + 1 * d.val = (i 3).val; omega

theorem read1 (c : Dev nD) (t : Fin cfg0.N) (r : Fin 2048) (d : Fin 128) (i : S2x16x2048x128.Idx)
    (h0 : win0_1.index t (0 : Fin 4) = (i 0).val) (h1 : win0_1.index t (1 : Fin 4) = (i 1).val)
    (h2 : win0_1.index t (2 : Fin 4) * 2048 + r.val = (i 2).val) (h3 : win0_1.index t (3 : Fin 4) * 128 + d.val = (i 3).val) :
    iblk m c 1 t (ix4 (0 : Fin 1) (0 : Fin 1) r d) = V m c main_arg1 i := by
  show V m c main_arg1 (((cfg0.win 1).blk t).view.emb (ix4 (0 : Fin 1) (0 : Fin 1) r d)) = V m c main_arg1 i
  refine congrArg (V m c main_arg1) (funext fun a => Fin.ext ?_)
  match a with
  | ⟨0, _⟩ => show win0_1.index t (0 : Fin 4) * 1 + 1 * 0 = (i 0).val; omega
  | ⟨1, _⟩ => show win0_1.index t (1 : Fin 4) * 1 + 1 * 0 = (i 1).val; omega
  | ⟨2, _⟩ => show win0_1.index t (2 : Fin 4) * 2048 + 1 * r.val = (i 2).val; omega
  | ⟨3, _⟩ => show win0_1.index t (3 : Fin 4) * 128 + 1 * d.val = (i 3).val; omega

theorem read2 (c : Dev nD) (t : Fin cfg0.N) (r : Fin 2048) (d : Fin 128) (i : S2x16x2048x128.Idx)
    (h0 : win0_2.index t (0 : Fin 4) = (i 0).val) (h1 : win0_2.index t (1 : Fin 4) = (i 1).val)
    (h2 : win0_2.index t (2 : Fin 4) * 2048 + r.val = (i 2).val) (h3 : win0_2.index t (3 : Fin 4) * 128 + d.val = (i 3).val) :
    iblk m c 2 t (ix4 (0 : Fin 1) (0 : Fin 1) r d) = V m c main_arg2 i := by
  show V m c main_arg2 (((cfg0.win 2).blk t).view.emb (ix4 (0 : Fin 1) (0 : Fin 1) r d)) = V m c main_arg2 i
  refine congrArg (V m c main_arg2) (funext fun a => Fin.ext ?_)
  match a with
  | ⟨0, _⟩ => show win0_2.index t (0 : Fin 4) * 1 + 1 * 0 = (i 0).val; omega
  | ⟨1, _⟩ => show win0_2.index t (1 : Fin 4) * 1 + 1 * 0 = (i 1).val; omega
  | ⟨2, _⟩ => show win0_2.index t (2 : Fin 4) * 2048 + 1 * r.val = (i 2).val; omega
  | ⟨3, _⟩ => show win0_2.index t (3 : Fin 4) * 128 + 1 * d.val = (i 3).val; omega

theorem read3 (c : Dev nD) (t : Fin cfg0.N) (r : Fin 1024) (u : Fin 2048) (i : S2x1x2048x2048.Idx)
    (h0 : win0_3.index t (0 : Fin 4) = (i 0).val) (h1 : win0_3.index t (1 : Fin 4) = (i 1).val)
    (h2 : win0_3.index t (2 : Fin 4) * 1024 + r.val = (i 2).val) (h3 : win0_3.index t (3 : Fin 4) * 2048 + u.val = (i 3).val) :
    iblk m c 3 t (ix4 (0 : Fin 1) (0 : Fin 1) r u) = V m c main_arg3 i := by
  show V m c main_arg3 (((cfg0.win 3).blk t).view.emb (ix4 (0 : Fin 1) (0 : Fin 1) r u)) = V m c main_arg3 i
  refine congrArg (V m c main_arg3) (funext fun a => Fin.ext ?_)
  match a with
  | ⟨0, _⟩ => show win0_3.index t (0 : Fin 4) * 1 + 1 * 0 = (i 0).val; omega
  | ⟨1, _⟩ => show win0_3.index t (1 : Fin 4) * 1 + 1 * 0 = (i 1).val; omega
  | ⟨2, _⟩ => show win0_3.index t (2 : Fin 4) * 1024 + 1 * r.val = (i 2).val; omega
  | ⟨3, _⟩ => show win0_3.index t (3 : Fin 4) * 2048 + 1 * u.val = (i 3).val; omega

/-! ## What a grid point writes back -/

/-- Point t writes back tile t of the attention weights of the argument arrays. -/
theorem flushed5_eq (c : Dev nD) (t : Fin cfg0.N) :
    (dats m 0 c).flushed 5 t = ((cfg0.win 5).blk t).view.read (Elt Ideal)
      (attn (V m c main_arg0) (V m c main_arg1) (V m c main_arg3)) := by
  rw [Value.flushed5]
  unfold out0_5
  rw [View.canon_unit_zero hz]
  simp only [View.ld_unit_zero (S := S1x1x1024x128) hz, View.ld_unit_zero (S := S1x1x2048x128) hz,
    View.ld_unit_zero (S := S1x1x1024x2048) hz]
  obtain ⟨⟨a0, a1, a2, a3⟩, ⟨b0, b1, b2, b3⟩, -, ⟨d0, d1, d2, d3⟩, -, ⟨f0, f1, f2, f3⟩⟩ := idx_facts t
  funext y
  revert y
  show ∀ y : S1x1x1024x2048.Idx, k0_pay3 (F := Ideal) (iblk m c 0 t) (iblk m c 1 t) (iblk m c 3 t) y
    = attn (V m c main_arg0) (V m c main_arg1) (V m c main_arg3) (((cfg0.win 5).blk t).view.emb y)
  intro y
  obtain ⟨y0, y1, r, u, rfl⟩ : ∃ (y0 y1 : Fin 1) (r : Fin 1024) (u : Fin 2048), y = ix4 y0 y1 r u :=
    ⟨y 0, y 1, y 2, y 3, eq_ix4 y⟩
  have hy0 := y0.isLt
  have hy1 := y1.isLt
  refine (Row.pay3_at _ _ _ y0 y1 r u).trans ?_
  refine Row.attn_block _ _ _ _ _ _ r u _ ?_ (fun d => ?_) (fun u' d => ?_) (fun u' => ?_)
  · show win0_5.index t (3 : Fin 4) * 2048 + 1 * u.val = u.val; omega
  · refine read0 m c t r d _ ?_ ?_ ?_ ?_
    · show win0_0.index t (0 : Fin 4) = win0_5.index t (0 : Fin 4) * 1 + 1 * y0.val; omega
    · show win0_0.index t (1 : Fin 4) = win0_5.index t (1 : Fin 4) * 1 + 1 * y1.val; omega
    · show win0_0.index t (2 : Fin 4) * 1024 + r.val = win0_5.index t (2 : Fin 4) * 1024 + 1 * r.val; omega
    · show win0_0.index t (3 : Fin 4) * 128 + d.val = d.val; omega
  · refine read1 m c t u' d _ ?_ ?_ ?_ ?_
    · show win0_1.index t (0 : Fin 4) = win0_5.index t (0 : Fin 4) * 1 + 1 * y0.val; omega
    · show win0_1.index t (1 : Fin 4) = win0_5.index t (1 : Fin 4) * 1 + 1 * y1.val; omega
    · show win0_1.index t (2 : Fin 4) * 2048 + u'.val = u'.val; omega
    · show win0_1.index t (3 : Fin 4) * 128 + d.val = d.val; omega
  · refine read3 m c t r u' _ ?_ ?_ ?_ ?_
    · show win0_3.index t (0 : Fin 4) = win0_5.index t (0 : Fin 4) * 1 + 1 * y0.val; omega
    · show win0_3.index t (1 : Fin 4) = 0; omega
    · show win0_3.index t (2 : Fin 4) * 1024 + r.val = win0_5.index t (2 : Fin 4) * 1024 + 1 * r.val; omega
    · show win0_3.index t (3 : Fin 4) * 2048 + u'.val = u'.val; omega

/-- Point t writes back tile t of the weights contracted with the values. -/
theorem flushed4_eq (c : Dev nD) (t : Fin cfg0.N) :
    (dats m 0 c).flushed 4 t = ((cfg0.win 4).blk t).view.read (Elt Ideal)
      (outp (V m c main_arg0) (V m c main_arg1) (V m c main_arg2) (V m c main_arg3)) := by
  rw [Value.flushed4]
  unfold out0_4
  rw [View.canon_unit_zero hz]
  simp only [View.ld_unit_zero (S := S1x1x1024x128) hz, View.ld_unit_zero (S := S1x1x2048x128) hz,
    View.ld_unit_zero (S := S1x1x1024x2048) hz]
  obtain ⟨⟨a0, a1, a2, a3⟩, ⟨b0, b1, b2, b3⟩, ⟨c0, c1, c2, c3⟩, ⟨d0, d1, d2, d3⟩, ⟨e0, e1, e2, e3⟩, ⟨f0, f1, f2, f3⟩⟩ := idx_facts t
  funext y
  revert y
  show ∀ y : S1x1x1024x128.Idx, k0_pay1 (F := Ideal) (k0_pay2 (F := Ideal) (iblk m c 0 t) (iblk m c 1 t) (iblk m c 3 t))
      (k0_pay4 (iblk m c 2 t)) (constant S1024x128 .f32 0x00000000#32) y
    = outp (V m c main_arg0) (V m c main_arg1) (V m c main_arg2) (V m c main_arg3) (((cfg0.win 4).blk t).view.emb y)
  intro y
  obtain ⟨y0, y1, r, d, rfl⟩ : ∃ (y0 y1 : Fin 1) (r : Fin 1024) (d : Fin 128), y = ix4 y0 y1 r d :=
    ⟨y 0, y 1, y 2, y 3, eq_ix4 y⟩
  have hy0 := y0.isLt
  have hy1 := y1.isLt
  refine Row.out_block _ _ _ _ _ _ _ _ y0 y1 r d _ (fun d' => ?_) (fun u' d' => ?_) (fun u' => ?_) (fun u' => ?_)
  · refine read0 m c t r d' _ ?_ ?_ ?_ ?_
    · show win0_0.index t (0 : Fin 4) = win0_4.index t (0 : Fin 4) * 1 + 1 * y0.val; omega
    · show win0_0.index t (1 : Fin 4) = win0_4.index t (1 : Fin 4) * 1 + 1 * y1.val; omega
    · show win0_0.index t (2 : Fin 4) * 1024 + r.val = win0_4.index t (2 : Fin 4) * 1024 + 1 * r.val; omega
    · show win0_0.index t (3 : Fin 4) * 128 + d'.val = d'.val; omega
  · refine read1 m c t u' d' _ ?_ ?_ ?_ ?_
    · show win0_1.index t (0 : Fin 4) = win0_4.index t (0 : Fin 4) * 1 + 1 * y0.val; omega
    · show win0_1.index t (1 : Fin 4) = win0_4.index t (1 : Fin 4) * 1 + 1 * y1.val; omega
    · show win0_1.index t (2 : Fin 4) * 2048 + u'.val = u'.val; omega
    · show win0_1.index t (3 : Fin 4) * 128 + d'.val = d'.val; omega
  · refine read2 m c t u' d _ ?_ ?_ ?_ ?_
    · show win0_2.index t (0 : Fin 4) = win0_4.index t (0 : Fin 4) * 1 + 1 * y0.val; omega
    · show win0_2.index t (1 : Fin 4) = win0_4.index t (1 : Fin 4) * 1 + 1 * y1.val; omega
    · show win0_2.index t (2 : Fin 4) * 2048 + u'.val = u'.val; omega
    · show win0_2.index t (3 : Fin 4) * 128 + d.val = win0_4.index t (3 : Fin 4) * 128 + 1 * d.val; omega
  · refine read3 m c t r u' _ ?_ ?_ ?_ ?_
    · show win0_3.index t (0 : Fin 4) = win0_4.index t (0 : Fin 4) * 1 + 1 * y0.val; omega
    · show win0_3.index t (1 : Fin 4) = 0; omega
    · show win0_3.index t (2 : Fin 4) * 1024 + r.val = win0_4.index t (2 : Fin 4) * 1024 + 1 * r.val; omega
    · show win0_3.index t (3 : Fin 4) * 2048 + u'.val = u'.val; omega

/-! ## The tiles cover the arrays -/

theorem mem_blk5 (t : Fin cfg0.N) (i : S2x16x2048x2048.Idx) :
    i ∈ ((cfg0.win 5).blk t).view.set ↔ ∀ a : Fin 4, win0_5.index t a * S1x1x1024x2048.size a ≤ (i a).val
      ∧ (i a).val < win0_5.index t a * S1x1x1024x2048.size a + S1x1x1024x2048.size a := by
  show i ∈ ((View.whole main_v0_1).slice (win0_5.rect t)).set ↔ _
  rw [View.set_slice_whole, Rect.mem_set_unit]
  exact Iff.rfl

theorem mem_blk4 (t : Fin cfg0.N) (i : S2x16x2048x128.Idx) :
    i ∈ ((cfg0.win 4).blk t).view.set ↔ ∀ a : Fin 4, win0_4.index t a * S1x1x1024x128.size a ≤ (i a).val
      ∧ (i a).val < win0_4.index t a * S1x1x1024x128.size a + S1x1x1024x128.size a := by
  show i ∈ ((View.whole main_v0_0).slice (win0_4.rect t)).set ↔ _
  rw [View.set_slice_whole, Rect.mem_set_unit]
  exact Iff.rfl

/-- The point that covers row s of (b, h) is the one of query tile s / 1024. -/
theorem cover5 (i : S2x16x2048x2048.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht, -⟩ := idx_onto ⟨(i 0).val, hi0⟩ ⟨(i 1).val, hi1⟩ ⟨(i 2).val / 1024, by omega⟩
  have q0 : win0_5.index t (0 : Fin 4) = (i 0).val := congrFun ht 0
  have q1 : win0_5.index t (1 : Fin 4) = (i 1).val := congrFun ht 1
  have q2 : win0_5.index t (2 : Fin 4) = (i 2).val / 1024 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 2048 ≤ (i 3).val ∧ (i 3).val < win0_5.index t (3 : Fin 4) * 2048 + 2048; omega

theorem cover4 (i : S2x16x2048x128.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 128 := (i 3).isLt
  obtain ⟨t, -, ht⟩ := idx_onto ⟨(i 0).val, hi0⟩ ⟨(i 1).val, hi1⟩ ⟨(i 2).val / 1024, by omega⟩
  have q0 : win0_4.index t (0 : Fin 4) = (i 0).val := congrFun ht 0
  have q1 : win0_4.index t (1 : Fin 4) = (i 1).val := congrFun ht 1
  have q2 : win0_4.index t (2 : Fin 4) = (i 2).val / 1024 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 128 ≤ (i 3).val ∧ (i 3).val < win0_4.index t (3 : Fin 4) * 128 + 128; omega

/-! ## The arrays after the run -/

theorem final5 (c : Dev nD) : (dats m 0 c).arrAt 5 cfg0.N
    = attn (m ((c : Thread nD τ).loc main_arg0)) (m ((c : Thread nD τ).loc main_arg1)) (m ((c : Thread nD τ).loc main_arg3)) :=
  (dats m 0 c).arrAt_eq_of_cover 5 _ (fun t _ => flushed5_eq m c t) cover5

theorem final4 (c : Dev nD) : (dats m 0 c).arrAt 4 cfg0.N
    = outp (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed4_eq m c t) cover4

/-- The kernel's run: both results at the whole-array functions of the arguments, the arguments unchanged. -/
theorem run : θ_run defs (onTc (τ := τ) (main (F := Ideal))) ⟨m, fun _ => 0, ρ⟩ fun r => ∀ c : Dev nD,
      r.2.mem ((c : Thread nD τ).loc main_v0_0) = outp (m ((c : Thread nD τ).loc main_arg0)) (m ((c : Thread nD τ).loc main_arg1))
          (m ((c : Thread nD τ).loc main_arg2)) (m ((c : Thread nD τ).loc main_arg3))
      ∧ r.2.mem ((c : Thread nD τ).loc main_v0_1) = attn (m ((c : Thread nD τ).loc main_arg0)) (m ((c : Thread nD τ).loc main_arg1))
          (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Blocks

end
-- ==== Proof.lean ====
/-
  Masked-softmax attention: the kernel against its jnp reference, over the extended reals.

  Both programs compute, for every batch, head and query row, the softmax (taken at the row maximum) of the scaled
  query–key scores with the masked positions filled by a constant, multiply it by the mask, and contract the result
  with the values.  The kernel multiplies the queries by a folded reciprocal which denotes the exact reciprocal of the
  reference's divisor, so the two scalings are one function on every extended real; a matrix product and a
  dot_general are the same finite sum, and so are the two spellings of a row maximum and of a row sum.  The kernel's
  tiles of both results are restrictions of the whole-array functions `Cert.Attn.outp` and `Cert.Attn.attn`, and the
  reference's results are those functions index by index; no law used needs finiteness.
-/
import proofs.«131482_j84731114816130_2_alg».proof.Defs
import proofs.«131482_j84731114816130_2_alg».proof.Proof.Gen.Kernel
import proofs.«131482_j84731114816130_2_alg».proof.Proof.Gen.Kernel.Frame
import proofs.«131482_j84731114816130_2_alg».proof.Proof.Gen.KernelIdeal
import proofs.«131482_j84731114816130_2_alg».proof.Proof.Gen.KernelIdeal.Frame
import proofs.«131482_j84731114816130_2_alg».proof.Proof.Gen.KernelIdeal.Value
import proofs.«131482_j84731114816130_2_alg».proof.Proof.Gen.ReferenceIdeal
import proofs.«131482_j84731114816130_2_alg».proof.Proof.Gen.ReferenceIdeal.Run
import proofs.«131482_j84731114816130_2_alg».proof.Proof.Gen.ReferenceIdeal.Read
import proofs.«131482_j84731114816130_2_alg».proof.Proof.Gen.Pre_finite_inputs
import proofs.«131482_j84731114816130_2_alg».proof.Proof.RefValue
import proofs.«131482_j84731114816130_2_alg».proof.Proof.KernelBlocks
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewritten constant: the table gives the folded reciprocal the value 1048576/11863283. -/
theorem preserves : Cert.preserves_Kernel_KernelIdeal :=
  IdealRules.named_const.statement Cert.KernelIdeal.κ "inv_temp" .f32 0x3DB504F3#32 ((1048576 / 11863283 : ℝ) : EReal) rfl

/-- Both programs end with the attention output and the attention weights of the (agreeing) arguments. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2]
    exact (Cert.ReferenceIdeal.Read.val_main_v21_eq _ _ _ _).trans (Cert.ReferenceIdeal.RefValue.v21_eq _ _ _ _)
  · rw [(hagree c).1, (hagree c).2.1, (hagree c).2.2.2]
    exact (Cert.ReferenceIdeal.Read.val_main_v20_eq _ _ _).trans (Cert.ReferenceIdeal.RefValue.v20_eq _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
